-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x2 : Shape := ⟨2, ![32, 2]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x2 : S_.BroadcastsInDim S32x2 (![] : Fin 0 → Fin S32x2.rank)
  reducesTo_S32x2_S_d0_1 : S32x2.ReducesTo [0, 1] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_arg5 : FVec F S8x2048x1024 .f32) (main_v13 : IVec S_ 1) (main_v16 : IVec S8x1024x2048 1) : IVec S_ 1 :=
  let main_c_5 : IVec S_ 1 := constantI S_ 1 1#1
  let main_v17 : IVec S_ 1 := (fun x v => Host.reduce IntOp.andi x v reducesTo_S8x1024x2048_S_d0_1_2 h_S_) main_v16 main_c_5
  let main_v18 : IVec S_ 1 := andi main_v13 main_v17
  let main_v19 : FVec F S8x2048x1024 .f32 := Host.absf main_arg5
  let main_cst_6 : FVec F S_ .f32 := constant S_ .f32 0x7F800000#32
  let main_v20 : FVec F S8x2048x1024 .f32 := broadcastInDim S8x2048x1024 ![] bcast_S_S8x2048x1024 main_cst_6
  let main_v21 : IVec S8x2048x1024 1 := cmpf .olt main_v19 main_v20
  let main_c_7 : IVec S_ 1 := constantI S_ 1 1#1
  let main_v22 : IVec S_ 1 := (fun x v => Host.reduce IntOp.andi x v reducesTo_S8x2048x1024_S_d0_1_2 h_S_) main_v21 main_c_7
  let main_v23 : IVec S_ 1 := andi main_v18 main_v22
  main_v23

def fn {F : FTy → Type} [FloatOps F] (main_arg0 : FVec F S32x2048 .f32) (main_arg1 : FVec F S32x2 .f32) (main_arg2 : IVec S32x2 32) (main_arg3 : FVec F S8x1024x2048 .f32) (main_arg4 : FVec F S8x1024x2048 .f32) (main_arg5 : FVec F S8x2048x1024 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2 .f32 := Host.absf main_arg1
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  let main_v9 : FVec F S8x1024x2048 .f32 := Host.absf main_arg3
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S8x1024x2048 .f32 := Host.absf main_arg4
  let main_cst_4 : FVec F S_ .f32 := constant S_ .f32 0x7F800000#32
  let main_v15 : FVec F S8x1024x2048 .f32 := broadcastInDim S8x1024x2048 ![] bcast_S_S8x1024x2048 main_cst_4
  let main_v16 : IVec S8x1024x2048 1 := cmpf .olt main_v14 main_v15
  fn_part1 (F := F) main_arg5 main_v13 main_v16
-- ==== Kernel.lean ====
abbrev S32x2048 : Shape := ⟨2, ![32, 2048]⟩
abbrev S32x2 : Shape := ⟨2, ![32, 2]⟩
abbrev S8x1024x2048 : Shape := ⟨3, ![8, 1024, 2048]⟩
abbrev S8x2048x1024 : Shape := ⟨3, ![8, 2048, 1024]⟩
abbrev S2x32x2048 : Shape := ⟨3, ![2, 32, 2048]⟩
abbrev S1x1024x2048 : Shape := ⟨3, ![1, 1024, 2048]⟩
abbrev S1x2048x1024 : Shape := ⟨3, ![1, 2048, 1024]⟩
abbrev S1x32x2048 : Shape := ⟨3, ![1, 32, 2048]⟩
abbrev S1024x2048 : Shape := ⟨2, ![1024, 2048]⟩
abbrev S32x1024 : Shape := ⟨2, ![32, 1024]⟩
abbrev S2048x1024 : Shape := ⟨2, ![2048, 1024]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S32x2048, .f32⟩
  | .hbm, ⟨1, _⟩ => ⟨S32x2, .f32⟩
  | .hbm, ⟨2, _⟩ => ⟨S32x2, .i32⟩
  | .hbm, ⟨3, _⟩ => ⟨S8x1024x2048, .f32⟩
  | .hbm, ⟨4, _⟩ => ⟨S8x1024x2048, .f32⟩
  | .hbm, ⟨5, _⟩ => ⟨S8x2048x1024, .f32⟩
  | .hbm, ⟨6, _⟩ => ⟨S2x32x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048, .f32⟩
  | .hbm, ⟨13, _⟩ => ⟨S32x2048, .f32⟩
  | .local _ .vmem, ⟨0, _⟩ => ⟨S32x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x2048x1024, .f32⟩
  | .local _ .vmem, ⟨6, _⟩ => ⟨S1x2048x1024, .f32⟩
  | .local _ .vmem, ⟨7, _⟩ => ⟨S1x32x2048, .f32⟩
  | .local _ .vmem, ⟨8, _⟩ => ⟨S1x32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  shapeCasts_S32x2048_S1x32x2048 : S32x2048.ShapeCasts S1x32x2048
  inb_S32x2048_S32x2048_0_0 : ∀ a, (![0, 0] : Fin 2 → Nat) a + S32x2048.size a ≤ S32x2048.size a
  h_S32x2048 : 0 < S32x2048.numel
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reducesTo_S2x32x2048_S32x2048_d0 : S2x32x2048.ReducesTo [0] S32x2048
  h_S_ : 0 < S_.numel
  bcast_S_S32x2048 : S_.BroadcastsInDim S32x2048 (![] : Fin 0 → Fin S32x2048.rank)
  dot_S32x2048_S1024x2048_S32x1024_1_1_0_0_n_n_wf : DotDims.WF S32x2048 S1024x2048 S32x1024 [1] [1] [0] [0] [] []
  dot_S32x1024_S2048x1024_S32x2048_1_1_0_0_n_n_wf : DotDims.WF S32x1024 S2048x1024 S32x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .f32 = 32 ∨ (Rect.block (s := S8x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x1024x2048.size a
  hwx0_2 : ∀ i : grid0.Coords, EltTy.bits .f32 = 32 ∨ (Rect.block (s := S8x1024x2048) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x2048.size a ≤ S2x32x2048.size a
  hwx0_4 : ∀ i : grid0.Coords, EltTy.bits .f32 = 32 ∨ (Rect.block (s := S2x32x2048) S1x32x2048.size (cc0_transform_4 i) (hinb0_4 i)).WholeWords (EltTy.packing .f32)

variable [Facts₀]

def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf
def dot_S32x1024_S2048x1024_S32x2048_1_1_0_0_n_n : DotDims S32x1024 S2048x1024 S32x2048 where
  lhsContracting := [1]
  rhsContracting := [1]
  lhsNonContracting := [0]
  rhsNonContracting := [0]
  lhsBatch := []
  rhsBatch := []
  wf := dot_S32x1024_S2048x1024_S32x2048_1_1_0_0_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048 : Shape := ⟨2, ![32, 2048]⟩
abbrev S32x2 : Shape := ⟨2, ![32, 2]⟩
abbrev S8x1024x2048 : Shape := ⟨3, ![8, 1024, 2048]⟩
abbrev S8x2048x1024 : Shape := ⟨3, ![8, 2048, 1024]⟩
abbrev S8x1024x32 : Shape := ⟨3, ![8, 1024, 32]⟩
abbrev S8x32x1024 : Shape := ⟨3, ![8, 32, 1024]⟩
abbrev S_ : Shape := ⟨0, ![]⟩
abbrev S8x32x2048 : Shape := ⟨3, ![8, 32, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2, .f32⟩
  | .hbm, ⟨2, _⟩ => ⟨S32x2, .i32⟩
  | .hbm, ⟨3, _⟩ => ⟨S8x1024x2048, .f32⟩
  | .hbm, ⟨4, _⟩ => ⟨S8x1024x2048, .f32⟩
  | .hbm, ⟨5, _⟩ => ⟨S8x2048x1024, .f32⟩
  | .hbm, ⟨6, _⟩ => ⟨S8x1024x32, .f32⟩
  | .hbm, ⟨7, _⟩ => ⟨S8x32x1024, .f32⟩
  | .hbm, ⟨8, _⟩ => ⟨S8x32x1024, .f32⟩
  | .hbm, ⟨9, _⟩ => ⟨S8x32x1024, .f32⟩
  | .hbm, ⟨10, _⟩ => ⟨S_, .f32⟩
  | .hbm, ⟨11, _⟩ => ⟨S8x32x1024, .f32⟩
  | .hbm, ⟨12, _⟩ => ⟨S8x32x1024, .f32⟩
  | .hbm, ⟨13, _⟩ => ⟨S8x32x1024, .f32⟩
  | .hbm, ⟨14, _⟩ => ⟨S_, .f32⟩
  | .hbm, ⟨15, _⟩ => ⟨S8x32x1024, .f32⟩
  | .hbm, ⟨16, _⟩ => ⟨S8x32x1024, .f32⟩
  | .hbm, ⟨17, _⟩ => ⟨S8x32x1024, .f32⟩
  | .hbm, ⟨18, _⟩ => ⟨S_, .f32⟩
  | .hbm, ⟨19, _⟩ => ⟨S8x32x1024, .f32⟩
  | .hbm, ⟨20, _⟩ => ⟨S8x32x1024, .f32⟩
  | .hbm, ⟨21, _⟩ => ⟨S_, .f32⟩
  | .hbm, ⟨22, _⟩ => ⟨S8x32x1024, .f32⟩
  | .hbm, ⟨23, _⟩ => ⟨S8x32x1024, .f32⟩
  | .hbm, ⟨24, _⟩ => ⟨S8x32x1024, .f32⟩
  | .hbm, ⟨25, _⟩ => ⟨S8x1024x32, .f32⟩
  | .hbm, ⟨26, _⟩ => ⟨S8x32x1024, .f32⟩
  | .hbm, ⟨27, _⟩ => ⟨S8x32x1024, .f32⟩
  | .hbm, ⟨28, _⟩ => ⟨S8x32x2048, .f32⟩
  | .hbm, ⟨29, _⟩ => ⟨S_, .f32⟩
  | .hbm, ⟨30, _⟩ => ⟨S32x2048, .f32⟩
  | .hbm, ⟨31, _⟩ => ⟨S_, .f32⟩
  | .hbm, ⟨32, _⟩ => ⟨S32x2048, .f32⟩
  | .hbm, ⟨33, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  transposes_S8x1024x32_S8x32x1024_0_2_1 : S8x1024x32.Transposes [0, 2, 1] S8x32x1024
  bcast_S_S8x32x1024 : S_.BroadcastsInDim S8x32x1024 (![] : Fin 0 → Fin S8x32x1024.rank)
  reducesTo_S8x32x2048_S32x2048_d0 : S8x32x2048.ReducesTo [0] S32x2048
  h_S_ : 0 < S_.numel
  bcast_S_S32x2048 : S_.BroadcastsInDim S32x2048 (![] : Fin 0 → Fin S32x2048.rank)
  dot_S8x1024x2048_S32x2048_S8x1024x32_2_1_01_0_n_n_wf : DotDims.WF S8x1024x2048 S32x2048 S8x1024x32 [2] [1] [0, 1] [0] [] []
  dot_S8x32x1024_S8x2048x1024_S8x32x2048_2_2_1_1_0_0_wf : DotDims.WF S8x32x1024 S8x2048x1024 S8x32x2048 [2] [2] [1] [1] [0] [0]

variable [Facts₀]

def dot_S8x1024x2048_S32x2048_S8x1024x32_2_1_01_0_n_n : DotDims S8x1024x2048 S32x2048 S8x1024x32 where
  lhsContracting := [2]
  rhsContracting := [1]
  lhsNonContracting := [0, 1]
  rhsNonContracting := [0]
  lhsBatch := []
  rhsBatch := []
  wf := dot_S8x1024x2048_S32x2048_S8x1024x32_2_1_01_0_n_n_wf
def dot_S8x32x1024_S8x2048x1024_S8x32x2048_2_2_1_1_0_0 : DotDims S8x32x1024 S8x2048x1024 S8x32x2048 where
  lhsContracting := [2]
  rhsContracting := [2]
  lhsNonContracting := [1]
  rhsNonContracting := [1]
  lhsBatch := [0]
  rhsBatch := [0]
  wf := dot_S8x32x1024_S8x2048x1024_S8x32x2048_2_2_1_1_0_0_wf

class Facts : Prop extends Facts₀ where

variable [Facts]
-- ==== Proof.MoeSpec.lean ====
/-
  The mathematics both programs compute, written once over plain index types: eight expert MLPs
  (tanh-GELU of a gate projection, times an up projection, projected down) of the same 32 token
  rows, averaged. Everything is an extended real; every sum is a finite sum over a `Fin`.
-/
import Idealize.ShloMosaic.PureOps.Ideal
import Idealize.ShloMosaic.PureOps.Ideal.Laws
import Idealize.ShloMosaic.Lib.ValueIdx

noncomputable section

namespace Cert.MoeSpec

open Idealize.ShloMosaic Idealize.ShloMosaic.ValueIdx
open scoped BigOperators

/-- Token activations `[32, 2048]`. -/
abbrev Acts : Type := (⟨2, ![32, 2048]⟩ : Shape).Idx → EReal
/-- A stack of eight gate or up projections `[8, 1024, 2048]` (expert, hidden unit, input feature). -/
abbrev UpW : Type := (⟨3, ![8, 1024, 2048]⟩ : Shape).Idx → EReal
/-- A stack of eight down projections `[8, 2048, 1024]` (expert, output feature, hidden unit). -/
abbrev DownW : Type := (⟨3, ![8, 2048, 1024]⟩ : Shape).Idx → EReal

/-! ## The float constants, as the extended reals their patterns denote -/

/-- The pattern of `1.0` denotes `1`. -/
theorem ofBits_one : Ideal.ofBits .f32 0x3F800000#32 = ((1 : ℝ) : EReal) := by
  simp [Ideal.ofBits, Ideal.ieee, -EReal.coe_mul]; norm_num

/-- The pattern of `8.0` denotes `8`. -/
theorem ofBits_eight : Ideal.ofBits .f32 0x41000000#32 = ((8 : ℝ) : EReal) := by
  simp [Ideal.ofBits, Ideal.ieee, -EReal.coe_mul]; norm_num

/-! ## One expert -/

/-- The tanh approximation of GELU, `g · (½ · (1 + tanh (c₁ · (g + c₀ · g³))))`, the two constants left as the
    binary values both programs spell (the same words on both sides, so they are never evaluated). -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

/-- Token `t`'s projection onto hidden unit `i` of expert `e`: the inner product over the 2048 input features. -/
def proj (x : Acts) (w : UpW) (e : Fin 8) (t : Fin 32) (i : Fin 1024) : EReal :=
  ∑ k : Fin 2048, x (ix2 t k) * w (ix3 e i k)

/-- The gated hidden activation: GELU of the gate projection times the up projection. -/
def hidden (x : Acts) (gw uw : UpW) (e : Fin 8) (t : Fin 32) (i : Fin 1024) : EReal :=
  gelu (proj x gw e t i) * proj x uw e t i

/-- Expert `e`'s output feature `j` for token `t`: the hidden activations projected down. -/
def expertOut (x : Acts) (gw uw : UpW) (dw : DownW) (e : Fin 8) (t : Fin 32) (j : Fin 2048) : EReal :=
  ∑ i : Fin 1024, hidden x gw uw e t i * dw (ix3 e j i)

/-! ## The mean over the experts -/

/-- The result: the sum of the eight experts' outputs from zero, divided by eight. -/
def moe (x : Acts) (gw uw : UpW) (dw : DownW) : Acts := fun p =>
  Ideal.div (Ideal.ofBits .f32 0x00000000#32 + ∑ e : Fin 8, expertOut x gw uw dw e (p 0) (p 1))
    (Ideal.ofBits .f32 0x41000000#32)

/-- Two partial sums of four, each started from zero, added from zero and scaled by the quotient `1 / 8`, are the
    sum of all eight from zero divided by eight: addition of extended reals is associative and commutative, zero is
    neutral, and division by the real `8` is the product with `1/8` at the infinities too. -/
theorem halves_scaled (o : ℕ → EReal) :
    (Ideal.ofBits .f32 0x00000000#32
        + ((Ideal.ofBits .f32 0x00000000#32 + ∑ s ∈ Finset.range 4, o (4 * 0 + s))
          + (Ideal.ofBits .f32 0x00000000#32 + ∑ s ∈ Finset.range 4, o (4 * 1 + s))))
      * Ideal.div (Ideal.ofBits .f32 0x3F800000#32) (Ideal.ofBits .f32 0x41000000#32)
    = Ideal.div (Ideal.ofBits .f32 0x00000000#32 + ∑ e : Fin 8, o e.val) (Ideal.ofBits .f32 0x41000000#32) := by
  rw [Ideal.ofBits_zero_f32, ofBits_one, ofBits_eight, Ideal.div_coe (by norm_num : (8 : ℝ) ≠ 0),
    Ideal.div_coe (by norm_num : (8 : ℝ) ≠ 0), EReal.coe_one, one_mul]
  congr 1
  simp only [Finset.sum_range_succ, Finset.sum_range_zero, Fin.sum_univ_eight, zero_add, add_assoc]
  rfl

end Cert.MoeSpec

end
-- ==== Proof.RefIsMoe.lean ====
/-
  The reference, read one operation at a time, computes the mean of the eight experts: its batched
  `dot_general`s are the projections with the two factors of each product commuted, its transposes
  only rename coordinates, its cube is `(g · g) · g` where the specification writes `g · (g · g)`.
-/
import proofs.«167511_j75402445849172_2_alg».proof.Proof.Gen.ReferenceIdeal.Read
import proofs.«167511_j75402445849172_2_alg».proof.Proof.MoeSpec

noncomputable section

namespace Cert.ReferenceIdeal.RefValue

open Cert.ReferenceIdeal Cert.ReferenceIdeal.Read Idealize.ShloMosaic Idealize.ShloMosaic.ValueIdx Cert.MoeSpec
open scoped BigOperators

/-- The gate pre-activation, transposed to (expert, token, hidden unit), is the token's projection: the host
    contracts weight × activation over the 2048 input features. -/
theorem gate_eq (x0 : Acts) (w : UpW) (e : Fin 8) (t : Fin 32) (i : Fin 1024) :
    val_main_v1 (F := Ideal) x0 w (ix3 e t i) = proj x0 w e t i := by
  rw [val_main_v1_apply, val_main_v0_apply]
  unfold proj
  refine Finset.sum_congr rfl fun k _ => ?_
  have hl : lidx_main_v0 (idx_main_v1 (ix3 e t i)) k = ix3 e i k :=
    funext fun a => by match a with | ⟨0, _⟩ => rfl | ⟨1, _⟩ => rfl | ⟨2, _⟩ => rfl
  have hr : ridx_main_v0 (idx_main_v1 (ix3 e t i)) k = ix2 t k :=
    funext fun a => by match a with | ⟨0, _⟩ => rfl | ⟨1, _⟩ => rfl
  rw [hl, hr, mul_comm]

/-- The up projection likewise. -/
theorem up_eq (x0 : Acts) (w : UpW) (e : Fin 8) (t : Fin 32) (i : Fin 1024) :
    val_main_v16 (F := Ideal) x0 w (ix3 e t i) = proj x0 w e t i := by
  rw [val_main_v16_apply, val_main_v15_apply]
  unfold proj
  refine Finset.sum_congr rfl fun k _ => ?_
  have hl : lidx_main_v15 (idx_main_v16 (ix3 e t i)) k = ix3 e i k :=
    funext fun a => by match a with | ⟨0, _⟩ => rfl | ⟨1, _⟩ => rfl | ⟨2, _⟩ => rfl
  have hr : ridx_main_v15 (idx_main_v16 (ix3 e t i)) k = ix2 t k :=
    funext fun a => by match a with | ⟨0, _⟩ => rfl | ⟨1, _⟩ => rfl
  rw [hl, hr, mul_comm]

/-- The gated hidden activation: the pointwise chain between the two projections is the GELU, up to the
    order of the cube's factors. -/
theorem hidden_eq (x0 : Acts) (gw uw : UpW) (e : Fin 8) (t : Fin 32) (i : Fin 1024) :
    val_main_v17 (F := Ideal) x0 gw uw (ix3 e t i) = MoeSpec.hidden x0 gw uw e t i := by
  simp only [val_main_v17_apply, val_main_v14_apply, val_main_v13_apply, val_main_v12_apply, val_main_cst_2_apply,
    val_main_v11_apply, val_main_v10_apply, val_main_cst_1_apply, val_main_v9_apply, val_main_v8_apply,
    val_main_v7_apply, val_main_cst_0_apply, val_main_v6_apply, val_main_v5_apply, val_main_v4_apply,
    val_main_cst_apply, val_main_v3_apply, val_main_v2_apply, up_eq, gate_eq,
    Ideal.mulf_def, Ideal.addf_def, Ideal.hostUnary_tanh_def, Ideal.ofBits_def]
  unfold MoeSpec.hidden gelu
  rw [mul_comm (proj x0 gw e t i * proj x0 gw e t i) (proj x0 gw e t i)]

/-- The reference's result is the mean of the eight experts. -/
theorem result_eq (x0 : Acts) (gw uw : UpW) (dw : DownW) :
    val_main_v21 (F := Ideal) x0 gw uw dw = moe x0 gw uw dw := by
  funext p
  obtain ⟨t, j, rfl⟩ : ∃ (t : Fin 32) (j : Fin 2048), p = ix2 t j := ⟨p 0, p 1, eq_ix2 p⟩
  rw [val_main_v21_apply, val_main_v19_apply, val_main_v20_apply, val_main_cst_4_apply, val_main_cst_3_apply]
  simp only [Ideal.hostDivf_def, Ideal.ofBits_def]
  show Ideal.div (Ideal.ofBits .f32 0x00000000#32
        + ∑ e : Fin 8, val_main_v18 (F := Ideal) x0 gw uw dw (idx_main_v19 (ix2 t j) e)) (Ideal.ofBits .f32 0x41000000#32)
      = Ideal.div (Ideal.ofBits .f32 0x00000000#32 + ∑ e : Fin 8, expertOut x0 gw uw dw e t j) (Ideal.ofBits .f32 0x41000000#32)
  refine congrArg (fun s => Ideal.div (Ideal.ofBits .f32 0x00000000#32 + s) (Ideal.ofBits .f32 0x41000000#32))
    (Finset.sum_congr rfl fun e _ => ?_)
  rw [val_main_v18_apply]
  unfold expertOut
  refine Finset.sum_congr rfl fun i _ => ?_
  have hl : lidx_main_v18 (idx_main_v19 (ix2 t j) e) i = ix3 e t i :=
    funext fun a => by match a with | ⟨0, _⟩ => rfl | ⟨1, _⟩ => rfl | ⟨2, _⟩ => rfl
  have hr : ridx_main_v18 (idx_main_v19 (ix2 t j) e) i = ix3 e j i :=
    funext fun a => by match a with | ⟨0, _⟩ => rfl | ⟨1, _⟩ => rfl | ⟨2, _⟩ => rfl
  rw [hl, hr, hidden_eq]

end Cert.ReferenceIdeal.RefValue

end
-- ==== Proof.PointValue.lean ====
/-
  What one grid point contributes, read at an output element: the kernel body's three matrix products and
  the pointwise chain between them are one expert's output for the token row and output feature, over the
  blocks the point is handed — a [32, 2048] block of activations and three [1, ·, ·] weight blocks.
-/
import proofs.«167511_j75402445849172_2_alg».proof.Proof.Gen.KernelIdeal.Skeleton
import proofs.«167511_j75402445849172_2_alg».proof.Proof.MoeSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PointValue

open Cert.KernelIdeal Cert.KernelIdeal.Gen Idealize.ShloMosaic Idealize.ShloMosaic.ValueIdx Cert.MoeSpec
open scoped BigOperators

/-- The vector `tanh` at an index, at the ideal values. -/
theorem tanh_apply {s : Shape} {φ : FTy} (a : FVec Ideal s φ) (i : s.Idx) : tanh a i = Ideal.tanh (a i) := rfl

theorem rows_dot_rows_up_lhs0 (p : S32x1024.Idx) (q : dot_S32x2048_S1024x2048_S32x1024_1_1_0_0_n_n.contr.Idx) : (dot_S32x2048_S1024x2048_S32x1024_1_1_0_0_n_n.lhsIdx p q 0).val = (p 0).val := by
  unfold DotDims.lhsIdx
  rw [dif_neg (show ¬(0 : Fin S32x2048.rank) ∈ dot_S32x2048_S1024x2048_S32x1024_1_1_0_0_n_n.lhsBatch by decide), dif_pos (show (0 : Fin S32x2048.rank) ∈ dot_S32x2048_S1024x2048_S32x1024_1_1_0_0_n_n.lhsNonContracting by decide)]
  rfl
theorem rows_dot_rows_up_lhs1 (p : S32x1024.Idx) (q : dot_S32x2048_S1024x2048_S32x1024_1_1_0_0_n_n.contr.Idx) : (dot_S32x2048_S1024x2048_S32x1024_1_1_0_0_n_n.lhsIdx p q 1).val = (q ⟨0, by decide⟩).val :=
  dot_S32x2048_S1024x2048_S32x1024_1_1_0_0_n_n.lhsIdx_val_of_single rfl p q
theorem rows_dot_rows_up_rhs0 (p : S32x1024.Idx) (q : dot_S32x2048_S1024x2048_S32x1024_1_1_0_0_n_n.contr.Idx) : (dot_S32x2048_S1024x2048_S32x1024_1_1_0_0_n_n.rhsIdx p q 0).val = (p 1).val := by
  unfold DotDims.rhsIdx
  rw [dif_neg (show ¬(0 : Fin S1024x2048.rank) ∈ dot_S32x2048_S1024x2048_S32x1024_1_1_0_0_n_n.rhsBatch by decide), dif_pos (show (0 : Fin S1024x2048.rank) ∈ dot_S32x2048_S1024x2048_S32x1024_1_1_0_0_n_n.rhsNonContracting by decide)]
  rfl
theorem rows_dot_rows_up_rhs1 (p : S32x1024.Idx) (q : dot_S32x2048_S1024x2048_S32x1024_1_1_0_0_n_n.contr.Idx) : (dot_S32x2048_S1024x2048_S32x1024_1_1_0_0_n_n.rhsIdx p q 1).val = (q ⟨0, by decide⟩).val :=
  dot_S32x2048_S1024x2048_S32x1024_1_1_0_0_n_n.rhsIdx_val_of_single rfl p q

/-- Rows of a [32, 2048] matrix against rows of a [1024, 2048] matrix, contracted over the shared last axis into a
    zero accumulator: at (t, i) the inner product of row t with row i. -/
theorem rows_dot_rows_up {φ₁ φ₂ : FTy} (lhs : FVec Ideal S32x2048 φ₁) (rhs : FVec Ideal S1024x2048 φ₂) (t : Fin 32) (i : Fin 1024) :
    matmul dot_S32x2048_S1024x2048_S32x1024_1_1_0_0_n_n none lhs rhs (constant (F := Ideal) S32x1024 .f32 0x00000000#32) (ix2 t i)
      = ∑ k : Fin 2048, lhs (ix2 t k) * rhs (ix2 i k) := by
  simp only [matmul]
  rw [Ideal.matmul_constant_zero_apply, ← Equiv.sum_comp (contrEquiv1 dot_S32x2048_S1024x2048_S32x1024_1_1_0_0_n_n 2048 rfl rfl).symm]
  refine Finset.sum_congr rfl fun k _ => ?_
  have hk := contrEquiv1_symm_val dot_S32x2048_S1024x2048_S32x1024_1_1_0_0_n_n 2048 rfl rfl k
  have el : dot_S32x2048_S1024x2048_S32x1024_1_1_0_0_n_n.lhsIdx (ix2 t i) ((contrEquiv1 dot_S32x2048_S1024x2048_S32x1024_1_1_0_0_n_n 2048 rfl rfl).symm k) = ix2 t k :=
    funext fun a => Fin.ext (by
      match a with
      | ⟨0, _⟩ => exact rows_dot_rows_up_lhs0 _ _
      | ⟨1, _⟩ => exact (rows_dot_rows_up_lhs1 _ _).trans hk)
  have er : dot_S32x2048_S1024x2048_S32x1024_1_1_0_0_n_n.rhsIdx (ix2 t i) ((contrEquiv1 dot_S32x2048_S1024x2048_S32x1024_1_1_0_0_n_n 2048 rfl rfl).symm k) = ix2 i k :=
    funext fun a => Fin.ext (by
      match a with
      | ⟨0, _⟩ => exact rows_dot_rows_up_rhs0 _ _
      | ⟨1, _⟩ => exact (rows_dot_rows_up_rhs1 _ _).trans hk)
  rw [el, er]

theorem rows_dot_rows_down_lhs0 (p : S32x2048.Idx) (q : dot_S32x1024_S2048x1024_S32x2048_1_1_0_0_n_n.contr.Idx) : (dot_S32x1024_S2048x1024_S32x2048_1_1_0_0_n_n.lhsIdx p q 0).val = (p 0).val := by
  unfold DotDims.lhsIdx
  rw [dif_neg (show ¬(0 : Fin S32x1024.rank) ∈ dot_S32x1024_S2048x1024_S32x2048_1_1_0_0_n_n.lhsBatch by decide), dif_pos (show (0 : Fin S32x1024.rank) ∈ dot_S32x1024_S2048x1024_S32x2048_1_1_0_0_n_n.lhsNonContracting by decide)]
  rfl
theorem rows_dot_rows_down_lhs1 (p : S32x2048.Idx) (q : dot_S32x1024_S2048x1024_S32x2048_1_1_0_0_n_n.contr.Idx) : (dot_S32x1024_S2048x1024_S32x2048_1_1_0_0_n_n.lhsIdx p q 1).val = (q ⟨0, by decide⟩).val :=
  dot_S32x1024_S2048x1024_S32x2048_1_1_0_0_n_n.lhsIdx_val_of_single rfl p q
theorem rows_dot_rows_down_rhs0 (p : S32x2048.Idx) (q : dot_S32x1024_S2048x1024_S32x2048_1_1_0_0_n_n.contr.Idx) : (dot_S32x1024_S2048x1024_S32x2048_1_1_0_0_n_n.rhsIdx p q 0).val = (p 1).val := by
  unfold DotDims.rhsIdx
  rw [dif_neg (show ¬(0 : Fin S2048x1024.rank) ∈ dot_S32x1024_S2048x1024_S32x2048_1_1_0_0_n_n.rhsBatch by decide), dif_pos (show (0 : Fin S2048x1024.rank) ∈ dot_S32x1024_S2048x1024_S32x2048_1_1_0_0_n_n.rhsNonContracting by decide)]
  rfl
theorem rows_dot_rows_down_rhs1 (p : S32x2048.Idx) (q : dot_S32x1024_S2048x1024_S32x2048_1_1_0_0_n_n.contr.Idx) : (dot_S32x1024_S2048x1024_S32x2048_1_1_0_0_n_n.rhsIdx p q 1).val = (q ⟨0, by decide⟩).val :=
  dot_S32x1024_S2048x1024_S32x2048_1_1_0_0_n_n.rhsIdx_val_of_single rfl p q

/-- Rows of a [32, 1024] matrix against rows of a [2048, 1024] matrix likewise: at (t, j) the inner product of row t
    with row j over the 1024 hidden units. -/
theorem rows_dot_rows_down {φ₁ φ₂ : FTy} (lhs : FVec Ideal S32x1024 φ₁) (rhs : FVec Ideal S2048x1024 φ₂) (t : Fin 32) (i : Fin 2048) :
    matmul dot_S32x1024_S2048x1024_S32x2048_1_1_0_0_n_n none lhs rhs (constant (F := Ideal) S32x2048 .f32 0x00000000#32) (ix2 t i)
      = ∑ k : Fin 1024, lhs (ix2 t k) * rhs (ix2 i k) := by
  simp only [matmul]
  rw [Ideal.matmul_constant_zero_apply, ← Equiv.sum_comp (contrEquiv1 dot_S32x1024_S2048x1024_S32x2048_1_1_0_0_n_n 1024 rfl rfl).symm]
  refine Finset.sum_congr rfl fun k _ => ?_
  have hk := contrEquiv1_symm_val dot_S32x1024_S2048x1024_S32x2048_1_1_0_0_n_n 1024 rfl rfl k
  have el : dot_S32x1024_S2048x1024_S32x2048_1_1_0_0_n_n.lhsIdx (ix2 t i) ((contrEquiv1 dot_S32x1024_S2048x1024_S32x2048_1_1_0_0_n_n 1024 rfl rfl).symm k) = ix2 t k :=
    funext fun a => Fin.ext (by
      match a with
      | ⟨0, _⟩ => exact rows_dot_rows_down_lhs0 _ _
      | ⟨1, _⟩ => exact (rows_dot_rows_down_lhs1 _ _).trans hk)
  have er : dot_S32x1024_S2048x1024_S32x2048_1_1_0_0_n_n.rhsIdx (ix2 t i) ((contrEquiv1 dot_S32x1024_S2048x1024_S32x2048_1_1_0_0_n_n 1024 rfl rfl).symm k) = ix2 i k :=
    funext fun a => Fin.ext (by
      match a with
      | ⟨0, _⟩ => exact rows_dot_rows_down_rhs0 _ _
      | ⟨1, _⟩ => exact (rows_dot_rows_down_rhs1 _ _).trans hk)
  rw [el, er]

/-- The body's product of the three matrix multiplications at output element (t, j): the sum over the hidden units of
    the GELU of the gate inner product times the up inner product times the down weight — one expert's output, over
    the point's blocks (the casts to bf16 are the identity at the ideal values). -/
theorem expert_at (x0 : Vec Ideal S32x2048 .f32) (x1 x2 : Vec Ideal S1x1024x2048 .f32) (x3 : Vec Ideal S1x2048x1024 .f32)
    (t : Fin 32) (j : Fin 2048) :
    k0_pay3 (F := Ideal) x0 x1 x2 x3 (ix2 t j)
      = ∑ i : Fin 1024, (gelu (∑ k : Fin 2048, x0 (ix2 t k) * x1 (ix3 (0 : Fin 1) i k))
          * ∑ k : Fin 2048, x0 (ix2 t k) * x2 (ix3 (0 : Fin 1) i k)) * x3 (ix3 (0 : Fin 1) j i) := by
  unfold k0_pay3
  refine (rows_dot_rows_down _ _ t j).trans (Finset.sum_congr rfl fun i _ => ?_)
  simp only [truncf_apply, mulf_apply, addf_apply, tanh_apply, broadcast_apply, rows_dot_rows_up,
    shapeCast_1ab_ab_apply, Ideal.ofBits_def]
  rfl

end Cert.KernelIdeal.PointValue

end
-- ==== Proof.BlockFold.lean ====
/-
  What one core's output block holds while the grid runs: zero plus the first expert's product at the
  first point of the core's run of four, the previous contents plus the point's product at each later one.
-/
import proofs.«167511_j75402445849172_2_alg».proof.Proof.Gen.KernelIdeal.Frame
import proofs.«167511_j75402445849172_2_alg».proof.Proof.PointValue
import Idealize.ShloMosaic.Lib.Pipeline.Value
import Idealize.ShloMosaic.Lib.Tactic

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

section AnyValues

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a later point of a core's run the body leaves, in the output block holding `xo`, `xo` plus the product of
    the point's input blocks: its one store covers the block, and its loads read the whole buffers. -/
theorem later_point (c : Dev nD) (i : grid0.Coords) (a2 : Memref sig .tc .vmem S32x2048 .f32) (h2 : a2.IsWhole) (a3 : Memref sig .tc .vmem S1x1024x2048 .f32) (h3 : a3.IsWhole) (a4 : Memref sig .tc .vmem S1x1024x2048 .f32) (h4 : a4.IsWhole) (a5 : Memref sig .tc .vmem S1x2048x1024 .f32) (h5 : a5.IsWhole) (a6 : Memref sig .tc .vmem S1x32x2048 .f32) (h6 : a6.IsWhole) (hc : ¬cond0_0 i)
    (x0 : Vec F S32x2048 .f32) (x1 x2 : Vec F S1x1024x2048 .f32) (x3 : Vec F S1x2048x1024 .f32) (xo : Vec F S1x32x2048 .f32) :
    out0_B_4 c i a2 h2 a3 h3 a4 h4 a5 h5 a6 h6 hc x0 x1 x2 x3 xo = k0_pay1 (k0_pay3 x0 x1 x2 x3) (k0_pay4 xo) := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S32x2048) hz2, View.ld_unit_zero (S := S1x1024x2048) hz3,
    View.ld_unit_zero (S := S1x2048x1024) hz3, View.ld_unit_zero (S := S1x32x2048) hz3]

/-- At the first point of a core's run the body stores the zero block, reads it back, and leaves zero plus the
    product of the point's input blocks. -/
theorem first_point (c : Dev nD) (i : grid0.Coords) (a2 : Memref sig .tc .vmem S32x2048 .f32) (h2 : a2.IsWhole) (a3 : Memref sig .tc .vmem S1x1024x2048 .f32) (h3 : a3.IsWhole) (a4 : Memref sig .tc .vmem S1x1024x2048 .f32) (h4 : a4.IsWhole) (a5 : Memref sig .tc .vmem S1x2048x1024 .f32) (h5 : a5.IsWhole) (a6 : Memref sig .tc .vmem S1x32x2048 .f32) (h6 : a6.IsWhole) (hc : cond0_0 i)
    (x0 : Vec F S32x2048 .f32) (x1 x2 : Vec F S1x1024x2048 .f32) (x3 : Vec F S1x2048x1024 .f32) :
    out0_A_4 c i a2 h2 a3 h3 a4 h4 a5 h5 a6 h6 hc x0 x1 x2 x3 = k0_pay1 (k0_pay3 x0 x1 x2 x3) (k0_pay4 (k0_pay2 (F := F))) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x32x2048) hz3, View.readCov_unit_zero (S := S1x32x2048) _ hz3]
  simp only [View.readAt_eq_ld, h2.read_unread, h3.read_unread, h4.read_unread, h5.read_unread,
    View.ld_unit_zero (S := S32x2048) hz2, View.ld_unit_zero (S := S1x1024x2048) hz3,
    View.ld_unit_zero (S := S1x2048x1024) hz3]

end AnyValues

/-! ## The fold over a core's run of four points, at the ideal values -/

section Fold

variable (m : (ℓ : Loc nD τ sig) → Buf (Elt Ideal) ℓ)

/-- The token row and the output feature of an element of the [1, 32, 2048] block. -/
abbrev row (y : S1x32x2048.Idx) : Fin 32 := ⟨(y 1).val, (y 1).isLt⟩
abbrev col (y : S1x32x2048.Idx) : Fin 2048 := ⟨(y 2).val, (y 2).isLt⟩

/-- An element of the block is (0, row, column). -/
theorem eq_row_col (y : S1x32x2048.Idx) : y = ix3 (0 : Fin 1) (row y) (col y) := by
  funext a
  match a with
  | ⟨0, _⟩ => exact Subsingleton.elim (α := Fin 1) _ _
  | ⟨1, _⟩ => rfl
  | ⟨2, _⟩ => rfl

/-- The store's value at an element: what the block held there plus the point's product there (the two casts between
    [32, 2048] and [1, 32, 2048] only rename the element). -/
theorem stored_at (v31 v33 : FVec Ideal S32x2048 .f32) (y : S1x32x2048.Idx) :
    k0_pay1 (F := Ideal) v31 v33 y = v33 (ix2 (row y) (col y)) + v31 (ix2 (row y) (col y)) := by
  rw [eq_row_col y]
  unfold k0_pay1
  exact shapeCast_ab_1ab_apply (addf v33 v31) shapeCasts_S32x2048_S1x32x2048 (0 : Fin 1) (row y) (col y)

/-- The block read back as a [32, 2048] value. -/
theorem held_at (xo : Vec Ideal S1x32x2048 .f32) (r : Fin 32) (k : Fin 2048) :
    k0_pay4 (F := Ideal) xo (ix2 r k) = xo (ix3 (0 : Fin 1) r k) := by
  unfold k0_pay4
  exact shapeCast_1ab_ab_apply xo shapeCasts_S1x32x2048_S32x2048 r k

/-- The reset block is zero everywhere. -/
theorem reset_at (y : S1x32x2048.Idx) : k0_pay2 (F := Ideal) y = Ideal.ofBits .f32 0x00000000#32 := by
  rw [eq_row_col y]
  unfold k0_pay2
  exact shapeCast_ab_1ab_apply (broadcast S32x2048 (Scalar.ofBits (F := Ideal) .f32 0x00000000#32)) shapeCasts_S32x2048_S1x32x2048 (0 : Fin 1) (row y) (col y)

/-- What point `n` adds to its core's block, element by element (zero past the grid, which nothing reads). -/
def addend (c : Dev nD) (n : ℕ) : S1x32x2048.Idx → EReal := fun y =>
  if h : n < cfg0.N then
    k0_pay3 (F := Ideal) (iblk m c 0 ⟨n, h⟩) (iblk m c 1 ⟨n, h⟩) (iblk m c 2 ⟨n, h⟩) (iblk m c 3 ⟨n, h⟩) (ix2 (row y) (col y))
  else 0

/-- The block after the first point of a run, and after a later point from what the point before left. -/
def resetAt (c : Dev nD) (n : ℕ) (h : n < cfg0.N) : Vec Ideal S1x32x2048 .f32 :=
  k0_pay1 (k0_pay3 (iblk m c 0 ⟨n, h⟩) (iblk m c 1 ⟨n, h⟩) (iblk m c 2 ⟨n, h⟩) (iblk m c 3 ⟨n, h⟩)) (k0_pay4 (k0_pay2 (F := Ideal)))
def stepAt (c : Dev nD) (n : ℕ) (h : n < cfg0.N) (acc : Vec Ideal S1x32x2048 .f32) : Vec Ideal S1x32x2048 .f32 :=
  k0_pay1 (k0_pay3 (iblk m c 0 ⟨n, h⟩) (iblk m c 1 ⟨n, h⟩) (iblk m c 2 ⟨n, h⟩) (iblk m c 3 ⟨n, h⟩)) (k0_pay4 acc)

theorem resetAt_apply (c : Dev nD) (n : ℕ) (h : n < cfg0.N) (y : S1x32x2048.Idx) :
    resetAt m c n h y = Ideal.ofBits .f32 0x00000000#32 + addend m c n y := by
  unfold resetAt addend
  rw [stored_at, held_at, reset_at, dif_pos h]

theorem stepAt_apply (c : Dev nD) (n : ℕ) (h : n < cfg0.N) (acc : Vec Ideal S1x32x2048 .f32) (y : S1x32x2048.Idx) :
    stepAt m c n h acc y = acc y + addend m c n y := by
  unfold stepAt addend
  rw [stored_at, held_at, dif_pos h, ← eq_row_col y]

/-- The block after point `t`: zero plus the addends of the points of `t`'s run up to `t` — the run starts at the
    multiple of four below `t`, where the body resets the block, and every later point adds to what the point
    before left (induction along the run, never over the grid). -/
theorem block_after (c : Dev nD) (t : Fin cfg0.N) (y : S1x32x2048.Idx) :
    outsAt0 m c t.val t.isLt y
      = Ideal.ofBits .f32 0x00000000#32 + ∑ s ∈ Finset.range (t.val % 4 + 1), addend m c (4 * (t.val / 4) + s) y := by
  have h' : 4 * (t.val / 4) + t.val % 4 < cfg0.N := by rw [Nat.div_add_mod]; exact t.isLt
  have hmod : t.val % 4 ≤ 3 := by omega
  rw [Pipeline.eq_accAt_of_mod (fun n h => outsAt0 m c n h) 4 (resetAt m c) (stepAt m c)
    (fun n h hn => (outsAt0_A m c ⟨n, h⟩ hn).trans
      (first_point c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        (ms0_3 ⟨n, h⟩) (hs0_3 ⟨n, h⟩) (ms0_4 ⟨n, h⟩) (hs0_4 ⟨n, h⟩) ((hcond0_0 ⟨n, h⟩).mpr hn)
        (iblk m c 0 ⟨n, h⟩) (iblk m c 1 ⟨n, h⟩) (iblk m c 2 ⟨n, h⟩) (iblk m c 3 ⟨n, h⟩)))
    (fun n h hn => (outsAt0_B m c ⟨n + 1, h⟩ hn).trans
      (later_point c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hcnd => hn ((hcond0_0 ⟨n + 1, h⟩).mp hcnd))
        (iblk m c 0 ⟨n + 1, h⟩) (iblk m c 1 ⟨n + 1, h⟩) (iblk m c 2 ⟨n + 1, h⟩) (iblk m c 3 ⟨n + 1, h⟩)
        (outsAt0 m c n (Nat.lt_of_succ_lt h))))
    (by norm_num) t.val t.isLt h']
  exact Pipeline.accAt_add_apply (resetAt m c) (stepAt m c) (fun _ => Ideal.ofBits .f32 0x00000000#32) (addend m c)
    (4 * (t.val / 4)) 3 (fun h y => resetAt_apply m c _ h y) (fun n h acc y _ _ => stepAt_apply m c n h acc y)
    (t.val % 4) hmod h' y

end Fold

end Cert.KernelIdeal.BlockValue

end
-- ==== Proof.CoreSums.lean ====
/-
  The array the kernel leaves behind: the blocks each point is handed are the whole activations and expert
  number `t`'s three weight matrices, so point `t` adds expert `t`'s output; the output array's half `q`
  is written back once, after the last point of core `q`'s run, holding the sum from zero of experts
  `4q … 4q + 3`.
-/
import proofs.«167511_j75402445849172_2_alg».proof.Proof.BlockFold

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Cert.MoeSpec
open Idealize.ShloMosaic.Pipeline (Dat)
open scoped BigOperators

variable (m : (ℓ : Loc nD τ sig) → Buf (Elt Ideal) ℓ)

/-- The printed index maps, decided over the eight grid points: the activations' block never moves, each weight
    window is at block `t` of its expert axis, the output at block `t / 4`. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- A grid point as an expert number. -/
abbrev pt (t : Fin cfg0.N) : Fin 8 := ⟨t.val, lt_of_lt_of_eq t.isLt N_0⟩

/-- The activations' block at any point is the whole array. -/
theorem acts_block (c : Dev nD) (t : Fin cfg0.N) (r : Fin 32) (k : Fin 2048) :
    iblk m c 0 t (ix2 r k) = V m c main_arg0 (ix2 r k) := by
  obtain ⟨e0, e1, -⟩ := idx_facts t
  unfold iblk
  rw [View.read_apply]
  show V m c main_arg0 (((cfg0.win 0).blk t).view.emb (ix2 r k)) = V m c main_arg0 (ix2 r k)
  refine congrArg (V m c main_arg0) (funext fun a => Fin.ext ?_)
  match a with
  | ⟨0, _⟩ => show win0_0.index t (0 : Fin 2) * 32 + 1 * r.val = r.val; omega
  | ⟨1, _⟩ => show win0_0.index t (1 : Fin 2) * 2048 + 1 * k.val = k.val; omega

/-- The gate weights' block at point `t` is expert `t`'s matrix. -/
theorem gate_block (c : Dev nD) (t : Fin cfg0.N) (i : Fin 1024) (k : Fin 2048) :
    iblk m c 1 t (ix3 (0 : Fin 1) i k) = V m c main_arg3 (ix3 (pt t) i k) := by
  obtain ⟨-, -, g0, g1, g2, u0, u1, u2, d0, d1, d2, -⟩ := idx_facts t
  unfold iblk
  rw [View.read_apply]
  show V m c main_arg3 (((cfg0.win 1).blk t).view.emb (ix3 (0 : Fin 1) i k)) = V m c main_arg3 (ix3 (pt t) i k)
  refine congrArg (V m c main_arg3) (funext fun a => Fin.ext ?_)
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 2048 + 1 * k.val = k.val; omega

/-- The up weights' block at point `t` is expert `t`'s matrix. -/
theorem up_block (c : Dev nD) (t : Fin cfg0.N) (i : Fin 1024) (k : Fin 2048) :
    iblk m c 2 t (ix3 (0 : Fin 1) i k) = V m c main_arg4 (ix3 (pt t) i k) := by
  obtain ⟨-, -, g0, g1, g2, u0, u1, u2, d0, d1, d2, -⟩ := idx_facts t
  unfold iblk
  rw [View.read_apply]
  show V m c main_arg4 (((cfg0.win 2).blk t).view.emb (ix3 (0 : Fin 1) i k)) = V m c main_arg4 (ix3 (pt t) i k)
  refine congrArg (V m c main_arg4) (funext fun a => Fin.ext ?_)
  match a with
  | ⟨0, _⟩ => show win0_2.index t (0 : Fin 3) * 1 + 1 * 0 = t.val; omega
  | ⟨1, _⟩ => show win0_2.index t (1 : Fin 3) * 1024 + 1 * i.val = i.val; omega
  | ⟨2, _⟩ => show win0_2.index t (2 : Fin 3) * 2048 + 1 * k.val = k.val; omega

/-- The down weights' block at point `t` is expert `t`'s matrix. -/
theorem down_block (c : Dev nD) (t : Fin cfg0.N) (i : Fin 2048) (k : Fin 1024) :
    iblk m c 3 t (ix3 (0 : Fin 1) i k) = V m c main_arg5 (ix3 (pt t) i k) := by
  obtain ⟨-, -, g0, g1, g2, u0, u1, u2, d0, d1, d2, -⟩ := idx_facts t
  unfold iblk
  rw [View.read_apply]
  show V m c main_arg5 (((cfg0.win 3).blk t).view.emb (ix3 (0 : Fin 1) i k)) = V m c main_arg5 (ix3 (pt t) i k)
  refine congrArg (V m c main_arg5) (funext fun a => Fin.ext ?_)
  match a with
  | ⟨0, _⟩ => show win0_3.index t (0 : Fin 3) * 1 + 1 * 0 = t.val; omega
  | ⟨1, _⟩ => show win0_3.index t (1 : Fin 3) * 2048 + 1 * i.val = i.val; omega
  | ⟨2, _⟩ => show win0_3.index t (2 : Fin 3) * 1024 + 1 * k.val = k.val; omega

/-- So what point `n` adds is expert `n`'s output, for the element's token row and output feature. -/
theorem addend_eq (c : Dev nD) (n : ℕ) (h : n < 8) (y : S1x32x2048.Idx) :
    addend m c n y
      = expertOut (V m c main_arg0) (V m c main_arg3) (V m c main_arg4) (V m c main_arg5) ⟨n, h⟩ (row y) (col y) := by
  have h' : n < cfg0.N := lt_of_lt_of_eq h N_0.symm
  unfold addend
  rw [dif_pos h']
  refine (PointValue.expert_at (iblk m c 0 ⟨n, h'⟩) (iblk m c 1 ⟨n, h'⟩) (iblk m c 2 ⟨n, h'⟩) (iblk m c 3 ⟨n, h'⟩) (row y) (col y)).trans ?_
  unfold expertOut MoeSpec.hidden proj
  simp only [acts_block m c, gate_block m c, up_block m c, down_block m c]

/-- Expert `n`'s output by number (zero past the eighth, which nothing reads). -/
def expertAt (c : Dev nD) (r : Fin 32) (k : Fin 2048) (n : ℕ) : EReal :=
  if h : n < 8 then expertOut (V m c main_arg0) (V m c main_arg3) (V m c main_arg4) (V m c main_arg5) ⟨n, h⟩ r k else 0

/-- What the kernel's output array ends holding: at (q, r, k) the sum from zero of experts `4q … 4q + 3`. -/
def coreSums (c : Dev nD) : S2x32x2048.Idx → EReal := fun p =>
  Ideal.ofBits .f32 0x00000000#32
    + ∑ s ∈ Finset.range 4, expertAt m c ⟨(p 1).val, (p 1).isLt⟩ ⟨(p 2).val, (p 2).isLt⟩ (4 * (p 0).val + s)

/-- That array at an element given by its coordinates. -/
theorem coreSums_apply (c : Dev nD) (q : Fin 2) (r : Fin 32) (k : Fin 2048) :
    coreSums m c (ix3 q r k)
      = Ideal.ofBits .f32 0x00000000#32 + ∑ s ∈ Finset.range 4, expertAt m c r k (4 * q.val + s) := rfl

/-- What a writing-back point writes is its block of that array: the point is the last of its core's run, and the
    block holds zero plus the run's four addends. -/
theorem flushed_eq (c : Dev nD) (t : Fin cfg0.N) (hf : (cfg0.win 4).flush t = true) :
    (dats m 0 c).flushed 4 t = ((cfg0.win 4).blk t).view.read (Elt Ideal) (coreSums m c) := by
  have h3 : t.val % 4 = 3 := (flush0_4 t).mp hf
  have hN : t.val < 8 := lt_of_lt_of_eq t.isLt N_0
  obtain ⟨-, -, -, -, -, -, -, -, -, -, -, e0, e1, e2⟩ := idx_facts t
  show (cfg0.win 4).cut (grid0.coords t) ((dats m 0 c).after 4 t) = _
  rw [after0_4]
  funext y
  rw [View.read_apply]
  have hemb : ((cfg0.win 4).blk t).view.emb y = ix3 (⟨t.val / 4, by omega⟩ : Fin 2) (row y) (col y) := by
    funext a; apply Fin.ext
    match a with
    | ⟨0, _⟩ => show win0_4.index t (0 : Fin 3) * 1 + 1 * (y 0).val = t.val / 4; have : (y 0).val < 1 := (y 0).isLt; omega
    | ⟨1, _⟩ => show win0_4.index t (1 : Fin 3) * 32 + 1 * (y 1).val = (y 1).val; omega
    | ⟨2, _⟩ => show win0_4.index t (2 : Fin 3) * 2048 + 1 * (y 2).val = (y 2).val; omega
  show outsAt0 m c t.val t.isLt y = coreSums m c (((cfg0.win 4).blk t).view.emb y)
  rw [hemb, block_after m c t y, h3]
  unfold coreSums
  refine congrArg (Ideal.ofBits .f32 0x00000000#32 + ·) (Finset.sum_congr rfl fun s hs => ?_)
  have hs4 : s < 4 := Finset.mem_range.mp hs
  have hlt : 4 * (t.val / 4) + s < 8 := by omega
  rw [addend_eq m c (4 * (t.val / 4) + s) hlt y]
  show _ = expertAt m c (row y) (col y) (4 * (t.val / 4) + s)
  unfold expertAt
  rw [dif_pos hlt]

/-- An index of the array is in point `t`'s block iff each coordinate is in the block's range on its axis. -/
theorem mem_blk (t : Fin cfg0.N) (p : S2x32x2048.Idx) :
    p ∈ ((cfg0.win 4).blk t).view.set ↔ ∀ a : Fin 3, win0_4.index t a * S1x32x2048.size a ≤ (p a).val
      ∧ (p a).val < win0_4.index t a * S1x32x2048.size a + S1x32x2048.size a := by
  show p ∈ ((View.whole main_v0).slice (win0_4.rect t)).set ↔ _
  rw [View.set_slice_whole, Rect.mem_set_unit]
  exact Iff.rfl

/-- Every element of the array is in the block of the last point of its half's run. -/
theorem covered (p : S2x32x2048.Idx) :
    ∃ t : Fin cfg0.N, (cfg0.win 4).flush t = true ∧ p ∈ ((cfg0.win 4).blk t).view.set := by
  have h0 : (p 0).val < 2 := (p 0).isLt
  have h1 : (p 1).val < 32 := (p 1).isLt
  have h2 : (p 2).val < 2048 := (p 2).isLt
  obtain ⟨t, ht⟩ : ∃ t : Fin cfg0.N, t.val = 4 * (p 0).val + 3 :=
    ⟨⟨4 * (p 0).val + 3, by rw [show cfg0.N = 8 from N_0]; omega⟩, rfl⟩
  obtain ⟨-, -, -, -, -, -, -, -, -, -, -, e0, e1, e2⟩ := idx_facts t
  refine ⟨t, (flush0_4 t).mpr (by omega), ?_⟩
  rw [mem_blk]
  intro a
  match a with
  | ⟨0, _⟩ => show win0_4.index t (0 : Fin 3) * 1 ≤ (p 0).val ∧ (p 0).val < win0_4.index t (0 : Fin 3) * 1 + 1; omega
  | ⟨1, _⟩ => show win0_4.index t (1 : Fin 3) * 32 ≤ (p 1).val ∧ (p 1).val < win0_4.index t (1 : Fin 3) * 32 + 32; omega
  | ⟨2, _⟩ => show win0_4.index t (2 : Fin 3) * 2048 ≤ (p 2).val ∧ (p 2).val < win0_4.index t (2 : Fin 3) * 2048 + 2048; omega

/-- So the kernel's output array ends holding the two cores' sums. -/
theorem final (c : Dev nD) : (dats m 0 c).arrAt 4 cfg0.N = coreSums m c :=
  (dats m 0 c).arrAt_eq_of_cover 4 (coreSums m c) (flushed_eq m c) covered

end Cert.KernelIdeal.ArrayValue

end
-- ==== Proof.MeanOfHalves.lean ====
/-
  The host lines after the kernel add the output array's two halves from zero and scale by the quotient
  `1 / 8`; with each half four experts summed from zero, that is the mean of the eight experts.
-/
import proofs.«167511_j75402445849172_2_alg».proof.Proof.CoreSums
import Idealize.ShloMosaic.Lib.StableHlo.Run
import Idealize.ShloMosaic.PureOps.Ideal.Laws

noncomputable section

namespace Cert.KernelIdeal.ResultValue

open Cert.KernelIdeal Cert.KernelIdeal.Gen Cert.KernelIdeal.BlockValue Cert.KernelIdeal.ArrayValue
open Idealize.ShloMosaic Idealize.ShloMosaic.TcCoe Idealize.SL.Sem Idealize.ShloMosaic.StableHlo
open Idealize.ShloMosaic.ValueIdx Cert.MoeSpec
open Idealize.ShloMosaic.Pipeline (Dat)
open scoped BigOperators

variable (m : (ℓ : Loc nD τ sig) → Buf (Elt Ideal) ℓ) (ρ : Dev nD → PrngReg)

/-- The host lines' result as one term of the kernel's output array. -/
def scaledSum (A : S2x32x2048.Idx → EReal) : S32x2048.Idx → EReal :=
  mulf (F := Ideal) (Host.reduceAdd (F := Ideal) A (constant (F := Ideal) S_ .f32 0x00000000#32) reducesTo_S2x32x2048_S32x2048_d0 h_S_)
    (broadcastInDim S32x2048 ![] bcast_S_S32x2048
      (Host.divf (F := Ideal) (constant (F := Ideal) S_ .f32 0x3F800000#32) (constant (F := Ideal) S_ .f32 0x41000000#32)))

/-- After the region the result buffer holds that term of what the region left in the output array. -/
theorem tail_eq (c : Dev nD) :
    Pipeline.afterTail₀ cfgs (dats m) 0 (V0 m) [hostOps1] c main_v4 = scaledSum (coreSums m c) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v0)
      = coreSums m c :=
    (Pipeline.withArrays_arr spec0 launch0.win.arr_inj c _ _ 4).trans (final m c)
  rw [hA]
  rfl

/-- That term at an element: zero plus the two halves' elements, times the quotient of the constants `1` and `8`. -/
theorem scaledSum_apply (A : S2x32x2048.Idx → EReal) (r : Fin 32) (k : Fin 2048) :
    scaledSum A (ix2 r k)
      = (Ideal.ofBits .f32 0x00000000#32 + ∑ q : Fin 2, A (ix3 q r k))
        * Ideal.div (Ideal.ofBits .f32 0x3F800000#32) (Ideal.ofBits .f32 0x41000000#32) := by
  unfold scaledSum
  rw [mulf_apply]
  congr 1
  · simp only [Host.reduceAdd, Ideal.hostReduceAdd_def]
    rw [Ideal.hostReduceAdd_single reducesTo_S2x32x2048_S32x2048_d0 (by decide)]
    refine congrArg (_ + ·) (Finset.sum_congr rfl fun q _ => ?_)
    exact congrArg A (funext fun a => Fin.ext (by match a with | ⟨0, _⟩ => rfl | ⟨1, _⟩ => rfl | ⟨2, _⟩ => rfl))

/-- The kernel program's result is the mean of the eight experts of its argument arrays. -/
theorem result_eq (c : Dev nD) :
    scaledSum (coreSums m c) = moe (V m c main_arg0) (V m c main_arg3) (V m c main_arg4) (V m c main_arg5) := by
  funext p
  obtain ⟨r, k, rfl⟩ : ∃ (r : Fin 32) (k : Fin 2048), p = ix2 r k := ⟨p 0, p 1, eq_ix2 p⟩
  rw [scaledSum_apply, Fin.sum_univ_two, coreSums_apply, coreSums_apply]
  refine (halves_scaled (expertAt m c r k)).trans ?_
  show Ideal.div (Ideal.ofBits .f32 0x00000000#32 + ∑ e : Fin 8, expertAt m c r k e.val) (Ideal.ofBits .f32 0x41000000#32)
    = Ideal.div (Ideal.ofBits .f32 0x00000000#32
        + ∑ e : Fin 8, expertOut (V m c main_arg0) (V m c main_arg3) (V m c main_arg4) (V m c main_arg5) e r k)
      (Ideal.ofBits .f32 0x41000000#32)
  refine congrArg (fun s => Ideal.div (Ideal.ofBits .f32 0x00000000#32 + s) (Ideal.ofBits .f32 0x41000000#32))
    (Finset.sum_congr rfl fun e _ => ?_)
  unfold expertAt
  rw [dif_pos e.isLt]

/-- The run, read: the result buffer ends at the mean of the eight experts of the argument arrays, which end
    unchanged. -/
theorem run : θ_run defs (onTc (τ := τ) (main (F := Ideal))) ⟨m, fun _ => 0, ρ⟩ fun r => ∀ c : Dev nD,
      r.2.mem ((c.tc : Thread nD τ).loc main_v4)
        = moe (m ((c.tc : Thread nD τ).loc main_arg0)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans ((tail_eq m c).trans (result_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.ResultValue

end
-- ==== Proof.lean ====
/-
  A dense mixture of eight expert MLPs over 32 token rows, averaged uniformly.

  The reference computes, for every expert `e`, `out_e = (gelu (x · Wg_eᵀ) ∘ (x · Wu_eᵀ)) · Wd_eᵀ` (the tanh
  approximation of GELU) and returns `(0 + Σ_e out_e) / 8`. The kernel runs a 2 × 4 grid: point `(q, j)` is handed
  the whole activations and expert `4q + j`'s three weight matrices, forms that expert's output by three matrix
  products into zero accumulators, and adds it into core `q`'s [32, 2048] block of a [2, 32, 2048] output, which it
  zeroes at `j = 0` and writes back after `j = 3`; the host then adds the two blocks from zero and multiplies by the
  quotient `1 / 8`.

  Over the extended reals the two agree element by element: a matrix product into a zero accumulator and the host's
  contraction are the same finite sum (the factors of each product commuted); the casts to bf16 are the identity;
  `(g · g) · g = g · (g · g)`; two sums of four from zero, added from zero, are the sum of eight from zero
  (addition is associative and commutative, zero neutral); and division by the real `8` is multiplication by
  `1 / 8`, at the infinities too. No step needs the inputs to be finite.

  Proof/MoeSpec.lean states the mathematics and that last law; Proof/RefIsMoe.lean reads the reference's run as it;
  Proof/PointValue.lean reads one grid point's product at an element; Proof/BlockFold.lean folds a core's run of four
  points; Proof/CoreSums.lean identifies the blocks with the experts and reads the output array after the region;
  Proof/MeanOfHalves.lean reads the host lines after it. The three frames are the generated ones, the reference's its
  generated run with the result dropped; the idealization rewrote nothing.
-/
import proofs.«167511_j75402445849172_2_alg».proof.Defs
import proofs.«167511_j75402445849172_2_alg».proof.Proof.Gen.Kernel
import proofs.«167511_j75402445849172_2_alg».proof.Proof.Gen.Kernel.Skeleton
import proofs.«167511_j75402445849172_2_alg».proof.Proof.Gen.Kernel.Launch
import proofs.«167511_j75402445849172_2_alg».proof.Proof.Gen.Kernel.Points
import proofs.«167511_j75402445849172_2_alg».proof.Proof.Gen.Kernel.Frame
import proofs.«167511_j75402445849172_2_alg».proof.Proof.Gen.KernelIdeal
import proofs.«167511_j75402445849172_2_alg».proof.Proof.Gen.KernelIdeal.Skeleton
import proofs.«167511_j75402445849172_2_alg».proof.Proof.Gen.KernelIdeal.Launch
import proofs.«167511_j75402445849172_2_alg».proof.Proof.Gen.KernelIdeal.Points
import proofs.«167511_j75402445849172_2_alg».proof.Proof.Gen.KernelIdeal.Frame
import proofs.«167511_j75402445849172_2_alg».proof.Proof.Gen.ReferenceIdeal
import proofs.«167511_j75402445849172_2_alg».proof.Proof.Gen.ReferenceIdeal.Run
import proofs.«167511_j75402445849172_2_alg».proof.Proof.Gen.ReferenceIdeal.Read
import proofs.«167511_j75402445849172_2_alg».proof.Proof.Gen.Pre_finite_inputs
import proofs.«167511_j75402445849172_2_alg».proof.Proof.RefIsMoe
import proofs.«167511_j75402445849172_2_alg».proof.Proof.MeanOfHalves
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the mean of the eight experts of their argument arrays, which agree. -/
theorem algebraic : Cert.algebraic_KernelIdeal_ReferenceIdeal := by
  intro m ρ m' ρ' _ hagree
  refine ⟨fun c => Cert.MoeSpec.moe
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _).trans ((Cert.ReferenceIdeal.RefValue.result_eq _ _ _ _).trans ?_)
  rw [(hagree c).1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
